-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x384x384 : Shape := ⟨4, ![64, 1, 384, 384]⟩
abbrev S64x384x384 : Shape := ⟨3, ![64, 384, 384]⟩
abbrev S64x1 : Shape := ⟨2, ![64, 1]⟩
abbrev S_ : Shape := ⟨0, ![]⟩

class Facts : Prop where
  bcast_S_S64x1x384x384 : S_.BroadcastsInDim S64x1x384x384 (![] : Fin 0 → Fin S64x1x384x384.rank)
  reducesTo_S64x1x384x384_S_d0_1_2_3 : S64x1x384x384.ReducesTo [0, 1, 2, 3] S_
  h_S_ : 0 < S_.numel
  bcast_S_S64x384x384 : S_.BroadcastsInDim S64x384x384 (![] : Fin 0 → Fin S64x384x384.rank)
  reducesTo_S64x384x384_S_d0_1_2 : S64x384x384.ReducesTo [0, 1, 2] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  main_v18

def fn {F : FTy → Type} [FloatOps F] (main_arg0 : FVec F S64x1x384x384 .f32) (main_arg1 : FVec F S64x384x384 .f32) (main_arg2 : FVec F S64x1 .f32) (main_arg3 : FVec F S64x1 .f32) : IVec S_ 1 :=
  let main_v0 : FVec F S64x1x384x384 .f32 := Host.absf main_arg0
  let main_cst : FVec F S_ .f32 := constant S_ .f32 0x7F800000#32
  let main_v1 : FVec F S64x1x384x384 .f32 := broadcastInDim S64x1x384x384 ![] bcast_S_S64x1x384x384 main_cst
  let main_v2 : IVec S64x1x384x384 1 := cmpf .olt main_v0 main_v1
  let main_c : IVec S_ 1 := constantI S_ 1 1#1
  let main_v3 : IVec S_ 1 := (fun x v => Host.reduce IntOp.andi x v reducesTo_S64x1x384x384_S_d0_1_2_3 h_S_) main_v2 main_c
  let main_v4 : FVec F S64x384x384 .f32 := Host.absf main_arg1
  let main_cst_0 : FVec F S_ .f32 := constant S_ .f32 0x7F800000#32
  let main_v5 : FVec F S64x384x384 .f32 := broadcastInDim S64x384x384 ![] bcast_S_S64x384x384 main_cst_0
  let main_v6 : IVec S64x384x384 1 := cmpf .olt main_v4 main_v5
  let main_c_1 : IVec S_ 1 := constantI S_ 1 1#1
  let main_v7 : IVec S_ 1 := (fun x v => Host.reduce IntOp.andi x v reducesTo_S64x384x384_S_d0_1_2 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_v13 main_v16
-- ==== Kernel.lean ====
abbrev S64x1x384x384 : Shape := ⟨4, ![64, 1, 384, 384]⟩
abbrev S64x384x384 : Shape := ⟨3, ![64, 384, 384]⟩
abbrev S64x1 : Shape := ⟨2, ![64, 1]⟩
abbrev S1x1 : Shape := ⟨2, ![1, 1]⟩
abbrev S16x384x384 : Shape := ⟨3, ![16, 384, 384]⟩
abbrev S1x16x384x384 : Shape := ⟨4, ![1, 16, 384, 384]⟩
abbrev S1 : Shape := ⟨1, ![1]⟩
abbrev S1x1x1x1 : Shape := ⟨4, ![1, 1, 1, 1]⟩
abbrev S_ : Shape := ⟨0, ![]⟩

abbrev nBuf : Space → Nat
  | .hbm => 31
  | .vmem => 6
  | .smem => 0
  | _ => 0

abbrev bufTy : (tb : Table) → Fin (tcTables nBuf tb) → BufTy
  | .hbm, ⟨0, _⟩ => ⟨S64x1x384x384, .f32⟩
  | .hbm, ⟨1, _⟩ => ⟨S64x384x384, .f32⟩
  | .hbm, ⟨2, _⟩ => ⟨S64x1, .f32⟩
  | .hbm, ⟨3, _⟩ => ⟨S64x1, .f32⟩
  | .hbm, ⟨4, _⟩ => ⟨S64x384x384, .f32⟩
  | .hbm, ⟨5, _⟩ => ⟨S1x1, .f32⟩
  | .hbm, ⟨6, _⟩ => ⟨S_, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x1, .f32⟩
  | .hbm, ⟨23, _⟩ => ⟨S64x1, .f32⟩
  | .hbm, ⟨24, _⟩ => ⟨S64x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S16x384x384, .f32⟩
  | .local _ .vmem, ⟨1, _⟩ => ⟨S16x384x384, .f32⟩
  | .local _ .vmem, ⟨2, _⟩ => ⟨S16x384x384, .f32⟩
  | .local _ .vmem, ⟨3, _⟩ => ⟨S16x384x384, .f32⟩
  | .local _ .vmem, ⟨4, _⟩ => ⟨S1x1, .f32⟩
  | .local _ .vmem, ⟨5, _⟩ => ⟨S1x1, .f32⟩
  | _, _ => ⟨S64x1x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v46 : BitVec 1 := Scalar.cmpi .eq arg0 c3_i32
  let v47 : BitVec 32 := Scalar.extui v46
  let c0_i32_21 : BitVec 32 := 0#32
  let v48 : BitVec 1 := Scalar.cmpi .ne v47 c0_i32_21
  v48

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x1x384x384_S64x384x384 : S64x1x384x384.ShapeCasts S64x384x384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x384x384_S16x384x384_0_0_0 : ∀ a, (![0, 0, 0] : Fin 3 → Nat) a + S16x384x384.size a ≤ S16x384x384.size a
  h_S16x384x384 : 0 < S16x384x384.numel
  shapeCasts_S16x384x384_S16x384x384 : S16x384x384.ShapeCasts S16x384x384
  shapeCasts_S16x384x384_S1x16x384x384 : S16x384x384.ShapeCasts S1x16x384x384
  reduces_S1x16x384x384_S1 : S1x16x384x384.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S_ : S1x1.ShapeCasts S_
  bcast_S_S64x1 : S_.BroadcastsInDim S64x1 (![] : Fin 0 → Fin S64x1.rank)
  reducesTo_S64x1_S_d0_1 : S64x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x384x384.size a ≤ S64x384x384.size a
  hwx0_0 : ∀ i : grid0.Coords, EltTy.bits .f32 = 32 ∨ (Rect.block (s := S64x384x384) S16x384x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x384x384.size a ≤ S64x384x384.size a
  hwx0_1 : ∀ i : grid0.Coords, EltTy.bits .f32 = 32 ∨ (Rect.block (s := S64x384x384) S16x384x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S16x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x384x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x384x384 : Shape := ⟨4, ![64, 1, 384, 384]⟩
abbrev S64x384x384 : Shape := ⟨3, ![64, 384, 384]⟩
abbrev S64x1 : Shape := ⟨2, ![64, 1]⟩
abbrev S_ : Shape := ⟨0, ![]⟩

abbrev nBuf : Space → Nat
  | .hbm => 83
  | .vmem => 0
  | .smem => 0
  | _ => 0

abbrev bufTy : (tb : Table) → Fin (tcTables nBuf tb) → BufTy
  | .hbm, ⟨0, _⟩ => ⟨S64x1x384x384, .f32⟩
  | .hbm, ⟨1, _⟩ => ⟨S64x384x384, .f32⟩
  | .hbm, ⟨2, _⟩ => ⟨S64x1, .f32⟩
  | .hbm, ⟨3, _⟩ => ⟨S64x1, .f32⟩
  | .hbm, ⟨4, _⟩ => ⟨S64x1x384x384, .f32⟩
  | .hbm, ⟨5, _⟩ => ⟨S64x1x384x384, .f32⟩
  | .hbm, ⟨6, _⟩ => ⟨S_, .f32⟩
  | .hbm, ⟨7, _⟩ => ⟨S64x1x384x384, .f32⟩
  | .hbm, ⟨8, _⟩ => ⟨S64x1x384x384, .f32⟩
  | .hbm, ⟨9, _⟩ => ⟨S_, .f32⟩
  | .hbm, ⟨10, _⟩ => ⟨S64x1x384x384, .f32⟩
  | .hbm, ⟨11, _⟩ => ⟨S64x1x384x384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64x1x384x384, .f32⟩
  | .hbm, ⟨16, _⟩ => ⟨S64x1x384x384, .f32⟩
  | .hbm, ⟨17, _⟩ => ⟨S_, .f32⟩
  | .hbm, ⟨18, _⟩ => ⟨S64x1x384x384, .f32⟩
  | .hbm, ⟨19, _⟩ => ⟨S64x1x384x384, .f32⟩
  | .hbm, ⟨20, _⟩ => ⟨S64x1x384x384, .f32⟩
  | .hbm, ⟨21, _⟩ => ⟨S64x1x384x384, .f32⟩
  | .hbm, ⟨22, _⟩ => ⟨S_, .f32⟩
  | .hbm, ⟨23, _⟩ => ⟨S64x1x384x384, .f32⟩
  | .hbm, ⟨24, _⟩ => ⟨S64x1x384x384, .f32⟩
  | .hbm, ⟨25, _⟩ => ⟨S_, .f32⟩
  | .hbm, ⟨26, _⟩ => ⟨S64x1x384x384, .f32⟩
  | .hbm, ⟨27, _⟩ => ⟨S64x1x384x384, .f32⟩
  | .hbm, ⟨28, _⟩ => ⟨S64x1x384x384, .f32⟩
  | .hbm, ⟨29, _⟩ => ⟨S_, .f32⟩
  | .hbm, ⟨30, _⟩ => ⟨S64x1x384x384, .f32⟩
  | .hbm, ⟨31, _⟩ => ⟨S64x1x384x384, .f32⟩
  | .hbm, ⟨32, _⟩ => ⟨S64x1x384x384, .f32⟩
  | .hbm, ⟨33, _⟩ => ⟨S_, .f32⟩
  | .hbm, ⟨34, _⟩ => ⟨S64x1x384x384, .f32⟩
  | .hbm, ⟨35, _⟩ => ⟨S64x1x384x384, .f32⟩
  | .hbm, ⟨36, _⟩ => ⟨S64x1x384x384, .f32⟩
  | .hbm, ⟨37, _⟩ => ⟨S64x1x384x384, .f32⟩
  | .hbm, ⟨38, _⟩ => ⟨S64x1x384x384, .f32⟩
  | .hbm, ⟨39, _⟩ => ⟨S_, .f32⟩
  | .hbm, ⟨40, _⟩ => ⟨S64x1x384x384, .f32⟩
  | .hbm, ⟨41, _⟩ => ⟨S64x1x384x384, .i1⟩
  | .hbm, ⟨42, _⟩ => ⟨S_, .f32⟩
  | .hbm, ⟨43, _⟩ => ⟨S64x1x384x384, .f32⟩
  | .hbm, ⟨44, _⟩ => ⟨S64x1x384x384, .f32⟩
  | .hbm, ⟨45, _⟩ => ⟨S64x1x384x384, .f32⟩
  | .hbm, ⟨46, _⟩ => ⟨S_, .f32⟩
  | .hbm, ⟨47, _⟩ => ⟨S64x1x384x384, .f32⟩
  | .hbm, ⟨48, _⟩ => ⟨S64x1x384x384, .f32⟩
  | .hbm, ⟨49, _⟩ => ⟨S_, .f32⟩
  | .hbm, ⟨50, _⟩ => ⟨S64x1x384x384, .f32⟩
  | .hbm, ⟨51, _⟩ => ⟨S64x1x384x384, .f32⟩
  | .hbm, ⟨52, _⟩ => ⟨S64x1x384x384, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S64x1, .f32⟩
  | .hbm, ⟨60, _⟩ => ⟨S_, .f32⟩
  | .hbm, ⟨61, _⟩ => ⟨S64x1, .f32⟩
  | .hbm, ⟨62, _⟩ => ⟨S64x1, .f32⟩
  | .hbm, ⟨63, _⟩ => ⟨S_, .f32⟩
  | .hbm, ⟨64, _⟩ => ⟨S64x1, .f32⟩
  | .hbm, ⟨65, _⟩ => ⟨S64x1, .f32⟩
  | .hbm, ⟨66, _⟩ => ⟨S64x1, .f32⟩
  | .hbm, ⟨67, _⟩ => ⟨S_, .f32⟩
  | .hbm, ⟨68, _⟩ => ⟨S64x1, .f32⟩
  | .hbm, ⟨69, _⟩ => ⟨S64x1, .f32⟩
  | .hbm, ⟨70, _⟩ => ⟨S64x1, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S64x1, .f32⟩
  | .hbm, ⟨75, _⟩ => ⟨S64x1, .f32⟩
  | .hbm, ⟨76, _⟩ => ⟨S64x1, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S64x1x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_v35 : Ref sig .tc := ⟨.hbm, 59, rfl⟩
abbrev main_cst_14 : Ref sig .tc := ⟨.hbm, 60, rfl⟩
abbrev main_v36 : Ref sig .tc := ⟨.hbm, 61, rfl⟩
abbrev main_v37 : Ref sig .tc := ⟨.hbm, 62, rfl⟩
abbrev main_cst_15 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_16 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_17 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_v49 : Ref sig .tc := ⟨.hbm, 78, rfl⟩
abbrev main_cst_19 : Ref sig .tc := ⟨.hbm, 79, rfl⟩
abbrev main_v50 : Ref sig .tc := ⟨.hbm, 80, rfl⟩
abbrev main_cst_20 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  bcast_S_S64x1x384x384 : S_.BroadcastsInDim S64x1x384x384 (![] : Fin 0 → Fin S64x1x384x384.rank)
  bcast_S64x384x384_S64x1x384x384_0_2_3 : S64x384x384.BroadcastsInDim S64x1x384x384 (![0, 2, 3] : Fin 3 → Fin S64x1x384x384.rank)
  reducesTo_S64x1x384x384_S_d0_1_2_3 : S64x1x384x384.ReducesTo [0, 1, 2, 3] S_
  h_S_ : 0 < S_.numel
  bcast_S_S64x1 : S_.BroadcastsInDim S64x1 (![] : Fin 0 → Fin S64x1.rank)
  reducesTo_S64x1_S_d0_1 : S64x1.ReducesTo [0, 1] S_

variable [Facts₀]

class Facts : Prop extends Facts₀ where

variable [Facts]
-- ==== Proof.Pieces.lean ====
/-
  What one run of the kernel body leaves behind, as functions of what it found — for any float values.

  The body keeps a running total in a `1 × 1` scratch cell. At the first grid point it first stores the starting
  value there and reads it back; at every point it loads the two input blocks whole, computes the block of losses,
  and stores "total found plus the block's sum" back into the cell; at the last point it also stores the quotient
  of the new total by the pixel count into the `1 × 1` output block. Each store covers its whole cell, so the
  cell's contents after the body are the stored value, and each load reads a whole buffer, so it returns the
  buffer's contents. Hence:
    first point        scratch ← total (losses x0 x1) start
    middle points      scratch ← total (losses x0 x1) found
    last point         scratch ← total (losses x0 x1) found,   output ← mean (total (losses x0 x1) found).
-/
import proofs.«177443_j64458869178587_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, rank two and rank three. -/
theorem hz : (![0, 0] : Fin 2 → Nat) = fun _ => 0 := funext fun a => by fin_cases a <;> rfl
theorem hz3 : (![0, 0, 0] : Fin 3 → Nat) = fun _ => 0 := funext fun a => by fin_cases a <;> rfl

/-- A middle point: the scratch cell ends at the found total plus the block's sum. -/
theorem sout_B (c : Dev nD) (i : grid0.Coords) (a1 : Memref sig .tc .vmem S16x384x384 .f32) (h1 : a1.IsWhole)
    (a2 : Memref sig .tc .vmem S16x384x384 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S16x384x384 .f32) (xs0 : Vec F S1x1 .f32) :
    sout0_B_0 c i a1 h1 a2 h2 a3 h3 a4 h4 hc0 hc1 x0 x1 xs0 = k0_pay1 (k0_pay4 x0 x1) xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S16x384x384) hz3, View.ld_unit_zero (S := S1x1) hz]

/-- The first point: the scratch cell ends at the starting value plus the block's sum (the starting value is stored,
    read back, and added to). -/
theorem sout_A (c : Dev nD) (i : grid0.Coords) (a1 : Memref sig .tc .vmem S16x384x384 .f32) (h1 : a1.IsWhole)
    (a2 : Memref sig .tc .vmem S16x384x384 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S16x384x384 .f32) :
    sout0_A_0 c i a1 h1 a2 h2 a3 h3 a4 h4 hc0 hc1 x0 x1 = k0_pay1 (k0_pay4 x0 x1) (k0_pay3 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S16x384x384) hz3]

/-- The last point: the output block ends at the mean of the new total. -/
theorem out_C (c : Dev nD) (i : grid0.Coords) (a1 : Memref sig .tc .vmem S16x384x384 .f32) (h1 : a1.IsWhole)
    (a2 : Memref sig .tc .vmem S16x384x384 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S16x384x384 .f32) (xs0 : Vec F S1x1 .f32) :
    out0_C_2 c i a1 h1 a2 h2 a3 h3 a4 h4 hc0 hc1 x0 x1 xs0 = k0_pay2 (k0_pay1 (k0_pay4 x0 x1) xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S16x384x384) hz3, View.ld_unit_zero (S := S1x1) hz]

/-- The last point: the scratch cell ends, as at a middle point, at the found total plus the block's sum. -/
theorem sout_C (c : Dev nD) (i : grid0.Coords) (a1 : Memref sig .tc .vmem S16x384x384 .f32) (h1 : a1.IsWhole)
    (a2 : Memref sig .tc .vmem S16x384x384 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S16x384x384 .f32) (xs0 : Vec F S1x1 .f32) :
    sout0_C_0 c i a1 h1 a2 h2 a3 h3 a4 h4 hc0 hc1 x0 x1 xs0 = k0_pay1 (k0_pay4 x0 x1) xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S16x384x384) hz3, View.ld_unit_zero (S := S1x1) hz]

end Cert.KernelIdeal.Pieces

end
-- ==== Proof.Consts.lean ====
/-
  The float constants of the two programs whose real values the proof needs, as the extended reals their
  bit patterns denote: the unit `1.0`, and the three divisors `64`, `147456 = 384 · 384` and
  `9437184 = 64 · 384 · 384` (each a small multiple of a power of two, so exactly representable).
  They are stated in one place so that the pattern-to-real computation is done once.
-/
import Idealize.ShloMosaic.PureOps.Ideal

noncomputable section

namespace Cert.PolyLoss.Consts

open Idealize.ShloMosaic

/-- `1.0` denotes the real `1`. -/
theorem ofBits_one : Ideal.ofBits .f32 0x3F800000#32 = 1 := by
  simp [Ideal.ofBits, Ideal.ieee, -EReal.coe_mul] <;> norm_num

/-- `64.0 = 2^6`. -/
theorem ofBits_64 : Ideal.ofBits .f32 0x42800000#32 = ((64 : ℝ) : EReal) := by
  simp [Ideal.ofBits, Ideal.ieee, -EReal.coe_mul] <;> norm_num

/-- `147456.0 = 1.125 · 2^17`, the number of pixels of one image. -/
theorem ofBits_147456 : Ideal.ofBits .f32 0x48100000#32 = ((147456 : ℝ) : EReal) := by
  simp [Ideal.ofBits, Ideal.ieee, -EReal.coe_mul] <;> norm_num

/-- `9437184.0 = 1.125 · 2^23`, the number of pixels of the whole batch. -/
theorem ofBits_9437184 : Ideal.ofBits .f32 0x4B100000#32 = ((9437184 : ℝ) : EReal) := by
  simp [Ideal.ofBits, Ideal.ieee, -EReal.coe_mul] <;> norm_num

end Cert.PolyLoss.Consts

end
-- ==== Proof.Pixel.lean ====
/-
  The mathematics of the loss, free of any program.

  For one pixel with logit `o` and target `t`, let `p = clamp (σ o)` be the logistic of the logit clamped to
  `[1e-4, 1 - 1e-4]` (the two float literals as they are). The pixel's loss is the clamped binary cross entropy
  plus the poly-1 correction,
      `-(t · max (log p) (-100) + (1 - t) · max (log (1 - p)) (-100)) + 2 · (1 - pt)`,
  with `pt = p` where `t > 0` and `1 - p` elsewhere. The heat-map loss is the sum of this over all
  `64 · 384 · 384` pixels divided by their number.

  Two facts about the extended reals are proved here. The logistic written out as `1 / (1 + e^(-o))` with the
  float literal `1.0` is the logistic function; and dividing by `384 · 384` and then by `64` is dividing by
  `64 · 384 · 384`, at the infinities too, because a quotient by a nonzero real is a product with its reciprocal and
  products of extended reals associate.
-/
import Idealize.ShloMosaic.PureOps.Ideal
import Idealize.ShloMosaic.PureOps.Ideal.Laws
import proofs.«177443_j64458869178587_1_alg».proof.Proof.Consts

noncomputable section

namespace Cert.PolyLoss

open Idealize.ShloMosaic

/-- The clamped probability of a logit: `min 0.9999 (max 0.0001 (σ o))`. -/
def prob (o : EReal) : EReal :=
  min (Ideal.ofBits .f32 0x3F7FF972#32) (max (Ideal.ofBits .f32 0x38D1B717#32) (Ideal.logistic o))

/-- The loss of one pixel from its logit `o` and target `t`. -/
def pixel (o t : EReal) : EReal :=
  -(t * max (Ideal.log (prob o)) (Ideal.ofBits .f32 0xC2C80000#32)
      + (Ideal.ofBits .f32 0x3F800000#32 - t)
        * max (Ideal.log (Ideal.ofBits .f32 0x3F800000#32 - prob o)) (Ideal.ofBits .f32 0xC2C80000#32))
    + Ideal.ofBits .f32 0x40000000#32
      * (Ideal.ofBits .f32 0x3F800000#32
          - Scalar.select (Ideal.cmp .ogt t (Ideal.ofBits .f32 0x00000000#32)) (prob o)
              (Ideal.ofBits .f32 0x3F800000#32 - prob o))

/-- The logistic spelled with the literal `1.0`: `1.0 / (1.0 + e^(-o))` is `σ o`. -/
theorem logistic_spelled (o : EReal) :
    Ideal.div (Ideal.ofBits .f32 0x3F800000#32) (Ideal.ofBits .f32 0x3F800000#32 + Ideal.exp (-o)) = Ideal.logistic o := by
  rw [Consts.ofBits_one]; rfl

/-- Subtracting from the literal `+0.0` is negating. -/
theorem zero_sub_eq_neg (x : EReal) : Ideal.ofBits .f32 0x00000000#32 - x = -x := by
  rw [Ideal.ofBits_zero_f32, sub_eq_add_neg, zero_add]

/-- The mean over the batch of the means over the images is the mean over all pixels: dividing by `147456` and then by
    `64` is dividing by `9437184`, for every extended real. -/
theorem div_div_eq (s : EReal) :
    Ideal.div (Ideal.div s (Ideal.ofBits .f32 0x48100000#32)) (Ideal.ofBits .f32 0x42800000#32)
      = Ideal.div s (Ideal.ofBits .f32 0x4B100000#32) := by
  rw [Consts.ofBits_147456, Consts.ofBits_64, Consts.ofBits_9437184,
    Ideal.div_coe (by norm_num : (147456 : ℝ) ≠ 0), Ideal.div_coe (by norm_num : (64 : ℝ) ≠ 0),
    Ideal.div_coe (by norm_num : (9437184 : ℝ) ≠ 0), mul_assoc, ← EReal.coe_mul]
  congr 2
  norm_num

end Cert.PolyLoss

end
-- ==== Proof.LibReshapeSum.lean ====
/-
  A reshape keeps the sum of a vector's entries.

  A reshape between two shapes of the same number of entries reads each entry of its operand exactly once (it is
  composition with a bijection of the two index sets), so the sum of the reshaped vector over its index set is the
  sum of the operand over its own — in any commutative monoid, for any two shapes (`sum_shapeCast`). At the
  extended reals a lane reduction `<add>` from the zero word into a shape whose axes all have extent one is the sum
  of every entry of its source; applied to a reshaped vector it is therefore the sum of every entry of the vector
  before the reshape (`multiReduction_add_shapeCast_total`) — the shape a body's `jnp.sum` of a whole block takes
  when it is lowered through a leading unit axis.
-/
import Idealize.ShloMosaic.PureOps.Ideal.Laws

noncomputable section

open scoped BigOperators

namespace Cert.LibReshapeSum

open Idealize.ShloMosaic

/-- A reshape permutes the entries, so it keeps their sum. -/
theorem sum_shapeCast {s t : Shape} {M : Type} [AddCommMonoid M] (v : s.Idx → M) (h : s.ShapeCasts t) :
    ∑ i : t.Idx, shapeCast t v h i = ∑ j : s.Idx, v j :=
  Equiv.sum_comp (Shape.reshapeEquiv h) v

/-- At the extended reals, the `<add>` lane reduction of a reshaped vector into a shape of unit axes is, at its one
    index, the sum of all the entries of the vector before the reshape. -/
theorem multiReduction_add_shapeCast_total {s s' t : Shape} {φ : FTy} {axes : List (Fin s'.rank)} (v : FVec Ideal s φ)
    (hc : s.ShapeCasts s') (acc : BitVec φ.bits) (h : s'.Reduces axes t) (ht : ∀ b, t.size b = 1)
    (hφ : FKind.Formats φ) (hacc : acc = FKind.add.neutral φ hφ) (j : t.Idx) :
    multiReduction .add axes t (shapeCast s' v hc) acc h hφ hacc j = ∑ i : s.Idx, v i :=
  (Ideal.multiReduction_add_total (shapeCast s' v hc) acc h ht hφ hacc j).trans (sum_shapeCast v hc)

end Cert.LibReshapeSum

end
-- ==== Proof.Payload.lean ====
/-
  The kernel body's arithmetic at the extended reals, entry by entry.

  The body computes, from a block of logits and the matching block of targets, the block of pixel losses
  (each entry the pixel loss of the two entries at the same position); adds the sum of that whole block to the
  running total it keeps in its `1 × 1` scratch cell; and, at the last grid point, divides the running total by
  the number of pixels of the batch. The lane reduction of the block over all its axes is, at the extended reals,
  the plain sum over the block's index set, and a reshape that only adds a leading unit axis permutes nothing the
  sum can see.
-/
import proofs.«177443_j64458869178587_1_alg».proof.Proof.Gen.KernelIdeal.Skeleton
import proofs.«177443_j64458869178587_1_alg».proof.Proof.Pixel
import proofs.«177443_j64458869178587_1_alg».proof.Proof.LibReshapeSum
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The block of pixel losses: entry `j` is the pixel loss of logit `x0 j` and target `x1 j`. -/
theorem losses_apply (x0 x1 : Vec Ideal S16x384x384 .f32) (j : S16x384x384.Idx) :
    k0_pay4 (F := Ideal) x0 x1 j = PolyLoss.pixel (x0 j) (x1 j) := by
  unfold k0_pay4
  simp only [shapeCast_self]
  refine (congrArg (· + _) (PolyLoss.zero_sub_eq_neg _)).trans ?_
  rfl

/-- Adding to the cell the one entry of a one-entry vector `w`, passed through a reshape to `[1,1,1,1]`, an
    extraction of its one entry and a splat: the cell's entry plus that entry. -/
theorem cell_add_apply (w : FVec Ideal S1 .f32) (acc : Vec Ideal S1x1 .f32) (y : S1x1.Idx) :
    addf acc (broadcast S1x1 (extractAt ![0, 0, 0, 0] (shapeCast S1x1x1x1 w shapeCasts_S1_S1x1x1x1) inpos_S1x1x1x1_p0_0_0_0)) y
      = acc y + w (Shape.reshapeEquiv shapeCasts_S1_S1x1x1x1
          (fun a => ⟨(![0, 0, 0, 0] : Fin 4 → Nat) a, inpos_S1x1x1x1_p0_0_0_0 a⟩)) := rfl

/-- The body's store into the cell, spelled out: the cell plus the splat of the block's lane reduction. -/
theorem total_eq (v : FVec Ideal S16x384x384 .f32) (acc : Vec Ideal S1x1 .f32) :
    k0_pay1 (F := Ideal) v acc
      = addf acc (broadcast S1x1 (extractAt ![0, 0, 0, 0] (shapeCast S1x1x1x1
          (multiReduction .add [1, 2, 3] S1 (shapeCast S1x16x384x384 v shapeCasts_S16x384x384_S1x16x384x384) 0x00000000#32
            reduces_S1x16x384x384_S1 (.inl rfl) rfl) shapeCasts_S1_S1x1x1x1) inpos_S1x1x1x1_p0_0_0_0)) := by
  unfold k0_pay1
  simp only [shapeCast_self]

/-- The running total after a block: the total before it plus the sum of the block's entries. -/
theorem total_apply (v : FVec Ideal S16x384x384 .f32) (acc : Vec Ideal S1x1 .f32) (y : S1x1.Idx) :
    k0_pay1 (F := Ideal) v acc y = acc y + ∑ j : S16x384x384.Idx, v j := by
  rw [total_eq]
  refine (cell_add_apply _ acc y).trans (congrArg (acc y + ·) ?_)
  exact LibReshapeSum.multiReduction_add_shapeCast_total v shapeCasts_S16x384x384_S1x16x384x384 0x00000000#32
    reduces_S1x16x384x384_S1 (fun b => by fin_cases b; rfl) (.inl rfl) rfl _

/-- The mean: the running total divided by the number of pixels of the batch. -/
theorem mean_apply (acc : Vec Ideal S1x1 .f32) (y : S1x1.Idx) :
    k0_pay2 (F := Ideal) acc y = Ideal.div (acc y) (Ideal.ofBits .f32 0x4B100000#32) := rfl

/-- The running total starts from the literal `+0.0`. -/
theorem start_apply (y : S1x1.Idx) : k0_pay3 (F := Ideal) y = Ideal.ofBits .f32 0x00000000#32 := by
  unfold k0_pay3
  simp only [shapeCast_self]
  rfl

end Cert.KernelIdeal.Payload

end
-- ==== Proof.Blocks.lean ====
/-
  Index bookkeeping for the batch of images, free of any program.

  The logits are an array `[64, 1, 384, 384]`; dropping the unit axis gives `[64, 384, 384]`, the shape of the
  targets. The two shapes have the same indices up to the bijection `(b, h, w) ↦ (b, 0, h, w)`, which is also the
  bijection a row-major reshape between them makes. The batch is cut into four blocks of sixteen images:
  image `r` of block `k` is image `16 k + r`, and `(k, (r, h, w)) ↦ (16 k + r, h, w)` is a bijection from
  `4 × [16, 384, 384]` to `[64, 384, 384]`. So a sum over all pixels is the sum over the four blocks of each block's
  sum, in any commutative monoid; with a starting value `z` added first, the blocks added one after the other give
  `z` plus the sum over all pixels.
-/
import Idealize.ShloMosaic.Lib.ValueIdx
import Idealize.ShloMosaic.Lib.Pipeline.Value

noncomputable section

open scoped BigOperators

namespace Cert.PolyLoss

open Idealize.ShloMosaic Idealize.ShloMosaic.ValueIdx

/-- The batch of images, one entry per pixel. -/
abbrev SAll : Shape := ⟨3, ![64, 384, 384]⟩
/-- One block of sixteen images. -/
abbrev SBlk : Shape := ⟨3, ![16, 384, 384]⟩
/-- The batch with the channel axis of extent one kept. -/
abbrev SChan : Shape := ⟨4, ![64, 1, 384, 384]⟩

/-! ## The unit channel axis -/

/-- Pixel `(b, h, w)` with the channel axis put back: `(b, 0, h, w)`. -/
def withChan (i : SAll.Idx) : SChan.Idx := ix4 (i 0) (0 : Fin 1) (i 1) (i 2)

/-- Pixel `(b, c, h, w)` with the channel axis dropped: `(b, h, w)`. -/
def dropChan (i : SChan.Idx) : SAll.Idx := ix3 (i 0) (i 2) (i 3)

theorem dropChan_withChan (i : SAll.Idx) : dropChan (withChan i) = i := by
  funext a; match a with | ⟨0, _⟩ => rfl | ⟨1, _⟩ => rfl | ⟨2, _⟩ => rfl

theorem withChan_dropChan (i : SChan.Idx) : withChan (dropChan i) = i := by
  funext a
  match a with
  | ⟨0, _⟩ => rfl
  | ⟨1, _⟩ => exact Fin.ext (by have h : (i 1).val < 1 := (i 1).isLt; show 0 = (i 1).val; omega)
  | ⟨2, _⟩ => rfl
  | ⟨3, _⟩ => rfl

/-- Putting the channel axis back is a bijection between the two index sets. -/
def chanEquiv : SAll.Idx ≃ SChan.Idx := ⟨withChan, dropChan, dropChan_withChan, withChan_dropChan⟩

/-- A sum over the pixels with the channel axis is the sum over the pixels without it. -/
theorem sum_withChan {M : Type*} [AddCommMonoid M] (g : SChan.Idx → M) :
    ∑ i : SChan.Idx, g i = ∑ i : SAll.Idx, g (withChan i) :=
  (Equiv.sum_comp chanEquiv g).symm

/-- The two indices have the same row-major position, so a reshape from `[64, 1, 384, 384]` to `[64, 384, 384]` reads
    `(b, h, w)` at `(b, 0, h, w)`. -/
theorem shapeCast_dropChan {α : Type} (x : SChan.Idx → α) (h : SChan.ShapeCasts SAll) (i : SAll.Idx) :
    shapeCast SAll x h i = x (withChan i) := by
  refine shapeCast_apply x h i (withChan i) ?_
  rw [Shape.rowMajor_val_four, Shape.rowMajor_val_three]
  show (((i 0).val * 1 + 0) * 384 + (i 1).val) * 384 + (i 2).val = ((i 0).val * 384 + (i 1).val) * 384 + (i 2).val
  omega

/-! ## The four blocks of sixteen images -/

/-- Pixel `(r, h, w)` of block `k` is pixel `(16 k + r, h, w)` of the batch. -/
def inBlock (k : Fin 4) (j : SBlk.Idx) : SAll.Idx :=
  ix3 (⟨16 * k.val + (j 0).val, by have h : (j 0).val < 16 := (j 0).isLt; have := k.isLt; omega⟩ : Fin 64) (j 1) (j 2)

/-- Cutting the batch into blocks is a bijection: image `b` is image `b % 16` of block `b / 16`. -/
def blockEquiv : Fin 4 × SBlk.Idx ≃ SAll.Idx where
  toFun p := inBlock p.1 p.2
  invFun i := (⟨(i 0).val / 16, by have h : (i 0).val < 64 := (i 0).isLt; omega⟩,
    ix3 (⟨(i 0).val % 16, Nat.mod_lt _ (by norm_num)⟩ : Fin 16) (i 1) (i 2))
  left_inv := by
    rintro ⟨k, j⟩
    have h0 : (j 0).val < 16 := (j 0).isLt
    refine Prod.ext (Fin.ext ?_) ?_
    · show (16 * k.val + (j 0).val) / 16 = k.val
      omega
    · funext a
      match a with
      | ⟨0, _⟩ => exact Fin.ext (by show (16 * k.val + (j 0).val) % 16 = (j 0).val; omega)
      | ⟨1, _⟩ => rfl
      | ⟨2, _⟩ => rfl
  right_inv := by
    intro i
    funext a
    match a with
    | ⟨0, _⟩ => exact Fin.ext (by show 16 * ((i 0).val / 16) + (i 0).val % 16 = (i 0).val; omega)
    | ⟨1, _⟩ => rfl
    | ⟨2, _⟩ => rfl

/-- A sum over the batch is the sum over the blocks of each block's sum. -/
theorem sum_blocks {M : Type*} [AddCommMonoid M] (f : SAll.Idx → M) :
    ∑ i : SAll.Idx, f i = ∑ k : Fin 4, ∑ j : SBlk.Idx, f (inBlock k j) := by
  rw [← Equiv.sum_comp blockEquiv f, Fintype.sum_prod_type]
  rfl

/-- Adding the four blocks' sums one after the other to a starting value `z` gives `z` plus the sum over the batch. -/
theorem chain_eq_total {M : Type*} [AddCommMonoid M] (z : M) (f : SAll.Idx → M) :
    (((z + ∑ j : SBlk.Idx, f (inBlock 0 j)) + ∑ j : SBlk.Idx, f (inBlock 1 j)) + ∑ j : SBlk.Idx, f (inBlock 2 j))
        + ∑ j : SBlk.Idx, f (inBlock 3 j)
      = z + ∑ i : SAll.Idx, f i := by
  rw [sum_blocks, Fin.sum_univ_four, add_assoc, add_assoc, add_assoc]
  congr 1
  rw [add_assoc, add_assoc]

end Cert.PolyLoss

end
-- ==== Proof.Loss.lean ====
/-
  The two results as functions of the four argument arrays.

  The heat-map loss is the literal `+0.0` plus the sum over every pixel of the batch of the pixel loss of its logit
  and its target, divided by the number of pixels `64 · 384 · 384`. The logits carry a channel axis of extent one
  that the targets do not have; pixel `(b, h, w)` pairs logit `(b, 0, h, w)` with target `(b, h, w)`.

  The class loss is computed by the same host operations in both programs, so it is kept as one term of the two
  small arrays `[64, 1]` it reads and never opened: the clamped binary cross entropy of the predictions against
  the labels, summed, divided by `64` and scaled by the weight `0.05`.
-/
import proofs.«177443_j64458869178587_1_alg».proof.Proof.Pixel
import proofs.«177443_j64458869178587_1_alg».proof.Proof.Blocks

noncomputable section

open scoped BigOperators

namespace Cert.PolyLoss

open Idealize.ShloMosaic

/-- The pixel loss at pixel `i` of the batch, of logits `x0` (with the channel axis) and targets `x1`. -/
def lossAt (x0 : SChan.Idx → EReal) (x1 : SAll.Idx → EReal) (i : SAll.Idx) : EReal :=
  pixel (x0 (withChan i)) (x1 i)

/-- The heat-map loss: the mean of the pixel losses over the whole batch. -/
def heatLoss (x0 : SChan.Idx → EReal) (x1 : SAll.Idx → EReal) : EReal :=
  Ideal.div (Ideal.ofBits .f32 0x00000000#32 + ∑ i : SAll.Idx, lossAt x0 x1 i) (Ideal.ofBits .f32 0x4B100000#32)

/-- The class predictions and labels: one entry per image. -/
abbrev SCls : Shape := ⟨2, ![64, 1]⟩
/-- The shape of a scalar. -/
abbrev SScalar : Shape := ⟨0, ![]⟩

/-- The class loss, as the host computes it from the predictions `x2` and the labels `x3`. -/
def clsLoss (hb : SScalar.BroadcastsInDim SCls (![] : Fin 0 → Fin SCls.rank)) (hr : SCls.ReducesTo [0, 1] SScalar)
    (h0 : 0 < SScalar.numel) (x2 x3 : FVec Ideal SCls .f32) : FVec Ideal SScalar .f32 :=
  mulf (Host.divf (Host.reduceAdd (Host.negf (addf
      (mulf x3 (maximumf (Host.log x2) (broadcastInDim SCls ![] hb (constant (F := Ideal) SScalar .f32 0xC2C80000#32))))
      (mulf (subf (broadcastInDim SCls ![] hb (constant (F := Ideal) SScalar .f32 0x3F800000#32)) x3)
        (maximumf (Host.log (subf (broadcastInDim SCls ![] hb (constant (F := Ideal) SScalar .f32 0x3F800000#32)) x2))
          (broadcastInDim SCls ![] hb (constant (F := Ideal) SScalar .f32 0xC2C80000#32))))))
      (constant (F := Ideal) SScalar .f32 0x00000000#32) hr h0) (constant (F := Ideal) SScalar .f32 0x42800000#32))
    (constant (F := Ideal) SScalar .f32 0x3D4CCCCD#32)

end Cert.PolyLoss

end
-- ==== Proof.KernelValue.lean ====
/-
  What the idealized kernel's program computes, read at the extended reals.

  The region's grid has four points; point `t` is handed block `t` of the logits (the argument reshaped to drop its
  channel axis, by the host line before the region) and block `t` of the targets: images `16 t … 16 t + 15`. The
  body's block of losses at point `t` therefore sums to the loss of block `t` of the batch (`sum_losses`), and the
  scratch cell, which the first point starts from the literal zero, holds after point `n` the literal zero plus the
  losses of blocks `0 … n` added one after the other (`scratch_eq`, by induction on the point). After the last point
  that is zero plus the sum over the whole batch, since the four blocks partition it and addition of extended reals
  is commutative and associative (`running_last`); the last point writes its quotient by the pixel count into
  the `1 × 1` output block, the only block ever written back, which is the whole result array (`final`). The host
  lines after the region reshape that array to a scalar (the first result) and compute the class loss from the
  two small arguments, which nothing has touched (the second result).
-/
import proofs.«177443_j64458869178587_1_alg».proof.Proof.Gen.KernelIdeal.Frame
import proofs.«177443_j64458869178587_1_alg».proof.Proof.Pieces
import proofs.«177443_j64458869178587_1_alg».proof.Proof.Payload
import proofs.«177443_j64458869178587_1_alg».proof.Proof.Loss
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.HeatMap

open Cert.KernelIdeal Cert.KernelIdeal.Gen Cert.PolyLoss

variable (m : (ℓ : Loc nD τ sig) → Buf (Elt Ideal) ℓ) (ρ : Dev nD → PrngReg)

/-- The grid point as a block number. -/
abbrev blockNo (t : Fin cfg0.N) : Fin 4 := t.cast (show cfg0.N = 4 from N_0)

/-- Both input windows' index maps send point `t` to block `(t, 0, 0)`: decided over the grid. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N, _)

/-- The logits the region finds: the argument with its channel axis dropped. -/
theorem V_logits (c : Dev nD) :
    (V m c main_v0 : S64x384x384.Idx → EReal)
      = shapeCast S64x384x384 (m ((c : Thread nD τ).loc main_arg0)) shapeCasts_S64x1x384x384_S64x384x384 := by
  show StableHlo.after hostOps0 (fun b => m (c, b)) (Proc.devRef .tc main_v0) = _
  after_results
  rfl

/-- Entry `j` of the block of logits at point `t` is the logit of pixel `j` of block `t`, channel `0`. -/
theorem logits_apply (c : Dev nD) (t : Fin cfg0.N) (j : S16x384x384.Idx) :
    (iblk m c 0 t : Vec Ideal S16x384x384 .f32) j
      = m ((c : Thread nD τ).loc main_arg0) (withChan (inBlock (blockNo t) j)) := by
  unfold iblk
  rw [View.read_apply]
  show V m c main_v0 _ = _
  rw [V_logits, shapeCast_dropChan]
  refine congrArg (fun i => m ((c : Thread nD τ).loc main_arg0) (withChan i)) ?_
  funext a
  apply Fin.ext
  match a with
  | ⟨0, _⟩ => show win0_0.index t 0 * 16 + 1 * (j 0).val = 16 * t.val + (j 0).val; rw [(idx_facts t).1.1]; omega
  | ⟨1, _⟩ => show win0_0.index t 1 * 384 + 1 * (j 1).val = (j 1).val; rw [(idx_facts t).1.2.1]; omega
  | ⟨2, _⟩ => show win0_0.index t 2 * 384 + 1 * (j 2).val = (j 2).val; rw [(idx_facts t).1.2.2]; omega

/-- Entry `j` of the block of targets at point `t` is the target of pixel `j` of block `t`. -/
theorem targets_apply (c : Dev nD) (t : Fin cfg0.N) (j : S16x384x384.Idx) :
    (iblk m c 1 t : Vec Ideal S16x384x384 .f32) j
      = m ((c : Thread nD τ).loc main_arg1) (inBlock (blockNo t) j) := by
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 16 + 1 * (j 0).val = 16 * t.val + (j 0).val; rw [(idx_facts t).2.1]; omega
  | ⟨1, _⟩ => show win0_1.index t 1 * 384 + 1 * (j 1).val = (j 1).val; rw [(idx_facts t).2.2.1]; omega
  | ⟨2, _⟩ => show win0_1.index t 2 * 384 + 1 * (j 2).val = (j 2).val; rw [(idx_facts t).2.2.2]; omega

/-- The sum of the pixel losses of block `k` of the batch. -/
def blockLoss (c : Dev nD) (k : Fin 4) : EReal :=
  ∑ j : SBlk.Idx, lossAt (m ((c : Thread nD τ).loc main_arg0)) (m ((c : Thread nD τ).loc main_arg1)) (inBlock k j)

/-- The block of losses the body computes at point `t` sums to the block's loss. -/
theorem sum_losses (c : Dev nD) (t : Fin cfg0.N) :
    ∑ j : S16x384x384.Idx, k0_pay4 (F := Ideal) (iblk m c 0 t) (iblk m c 1 t) j = blockLoss m c (blockNo t) := by
  refine Finset.sum_congr rfl fun j _ => ?_
  refine (Payload.losses_apply (iblk m c 0 t) (iblk m c 1 t) j).trans ?_
  rw [logits_apply, targets_apply]
  rfl

/-- The running total after point `n`. -/
def running (c : Dev nD) : (n : ℕ) → n < cfg0.N → EReal
  | 0, h => Ideal.ofBits .f32 0x00000000#32 + blockLoss m c (blockNo ⟨0, h⟩)
  | n + 1, h => running c n (Nat.lt_of_succ_lt h) + blockLoss m c (blockNo ⟨n + 1, h⟩)

/-- The scratch cell after point `n` holds the running total: at the first point the stored zero plus the block's loss,
    afterwards what the point before left plus the block's loss. -/
theorem scratch_eq (c : Dev nD) : ∀ (n : ℕ) (h : n < cfg0.N) (y : S1x1.Idx), (outsAt0 m c n h).2 y = running m c n h
  | 0, h, y => by
    rw [outsAt0_A m c ⟨0, h⟩ rfl (by show ¬0 % 4 = 3; decide)]
    dsimp only
    refine (congrFun (Pieces.sout_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)) y).trans ?_
    refine (Payload.total_apply _ _ y).trans ?_
    rw [Payload.start_apply, sum_losses]
    rfl
  | n + 1, h, y => by
    have hN : cfg0.N = 4 := N_0
    have h0 : ¬(⟨n + 1, h⟩ : Fin cfg0.N).val % 4 = 0 := by dsimp only; omega
    by_cases h1 : (⟨n + 1, h⟩ : Fin cfg0.N).val % 4 = 3
    · rw [outsAt0_C m c ⟨n + 1, h⟩ h0 h1]
      dsimp only
      refine (congrFun (Pieces.sout_C (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (iblk m c 0 ⟨n + 1, h⟩)
        (iblk m c 1 ⟨n + 1, h⟩) _) y).trans ?_
      refine (Payload.total_apply _ _ y).trans ?_
      rw [sum_losses]
      show (outsAt0 m c n _).2 y + _ = running m c n _ + _
      rw [scratch_eq c n]
    · rw [outsAt0_B m c ⟨n + 1, h⟩ h0 h1]
      dsimp only
      refine (congrFun (Pieces.sout_B (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (iblk m c 0 ⟨n + 1, h⟩)
        (iblk m c 1 ⟨n + 1, h⟩) _) y).trans ?_
      refine (Payload.total_apply _ _ y).trans ?_
      rw [sum_losses]
      show (outsAt0 m c n _).2 y + _ = running m c n _ + _
      rw [scratch_eq c n]

/-- After the last point the running total is the literal zero plus the sum over the whole batch. -/
theorem running_last (c : Dev nD) (h : 3 < cfg0.N) :
    running m c 3 h = Ideal.ofBits .f32 0x00000000#32
      + ∑ i : SAll.Idx, lossAt (m ((c : Thread nD τ).loc main_arg0)) (m ((c : Thread nD τ).loc main_arg1)) i := by
  simp only [running, blockLoss]
  exact chain_eq_total _ _

/-- The heat-map result on core `c`, as contents of the kernel's `1 × 1` result array. -/
abbrev result (c : Dev nD) : Buf (Elt Ideal) ((c : Thread nD τ).loc main_v1) :=
  fun _ => heatLoss (m ((c : Thread nD τ).loc main_arg0)) (m ((c : Thread nD τ).loc main_arg1))

/-- What the last point leaves in the output block: the mean over the batch. -/
theorem out_last (c : Dev nD) : (outsAt0 m c t0_3.val t0_3.isLt).1 = result m c := by
  funext y
  rw [outsAt0_C m c t0_3 (by decide) (by decide)]
  dsimp only
  refine (congrFun (Pieces.out_C (F := Ideal) c (grid0.coords t0_3) (ms0_0 t0_3) (hs0_0 t0_3) (ms0_1 t0_3)
    (hs0_1 t0_3) (ms0_2 t0_3) (hs0_2 t0_3) scM0_0 (Memref.isWhole_whole _) _ _ (iblk m c 0 t0_3)
    (iblk m c 1 t0_3) _) y).trans ?_
  refine (Payload.mean_apply _ y).trans ?_
  refine congrArg (Ideal.div · _) ?_
  refine (Payload.total_apply _ _ y).trans ?_
  rw [sum_losses, scratch_eq]
  exact running_last m c t0_3.isLt

/-- The one write-back, at the last point, writes the mean: the `1 × 1` block is the whole array. -/
theorem flushed_eq (c : Dev nD) (t : Fin cfg0.N) (hf : (cfg0.win 2).flush t = true) :
    (dats m 0 c).flushed 2 t = ((cfg0.win 2).blk t).view.read (Elt Ideal) (result m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2, out_last]
  have hz' : (fun a => win0_2.index t0_3 a * main_v1.ty.shape.size a) = fun _ => 0 := funext fun a => by fin_cases a <;> decide
  exact (Memref.read_access_unit_zero (Elt Ideal) main_v1 hz' (fun a => by rw [congrFun hz' a]; simp) (result m c)).symm

/-- So the kernel's result array ends holding the mean. -/
theorem final (c : Dev nD) : (dats m 0 c).arrAt 2 cfg0.N = result m c :=
  (dats m 0 c).arrAt_eq_of_cover 2 (result m c) (flushed_eq m c) fun i =>
    ⟨t0_3, (flush0_2 t0_3).mpr rfl, by
      show i ∈ ((View.whole main_v1).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega⟩

/-- The first result: the host reshapes the `1 × 1` array to a scalar. -/
theorem tail_heat (c : Dev nD) :
    Pipeline.afterTail₀ cfgs (dats m) 0 (V0 m) [hostOps1] c main_v2
      = fun _ => heatLoss (m ((c : Thread nD τ).loc main_arg0)) (m ((c : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = result m c := (Pipeline.withArrays_arr spec0 launch0.win.arr_inj c _ _ 2).trans (final m c)
  rw [e]
  rfl

/-- The second result: the host's class loss of the two small arguments, which the region does not touch. -/
theorem tail_cls (c : Dev nD) :
    Pipeline.afterTail₀ cfgs (dats m) 0 (V0 m) [hostOps1] c main_v19
      = clsLoss bcast_S_S64x1 reducesTo_S64x1_S_d0_1 h_S_ (m ((c : Thread nD τ).loc main_arg2)) (m ((c : Thread nD τ).loc main_arg3)) := by
  unfold Pipeline.afterTail₀
  show StableHlo.after hostOps1 _ (Proc.devRef .tc main_v19) = _
  after_results
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [e2, e3]
  rfl

/-- The kernel's run, read: every weakly fair execution ends with the heat-map loss and the class loss in the two
    result buffers and the four arguments unchanged. -/
theorem run : θ_run defs (onTc (τ := τ) (main (F := Ideal))) ⟨m, fun _ => 0, ρ⟩ fun r => ∀ c : Dev nD,
      r.2.mem ((c.tc : Thread nD τ).loc main_v2)
        = (fun _ => heatLoss (m ((c.tc : Thread nD τ).loc main_arg0)) (m ((c.tc : Thread nD τ).loc main_arg1)))
      ∧ r.2.mem ((c.tc : Thread nD τ).loc main_v19)
        = clsLoss bcast_S_S64x1 reducesTo_S64x1_S_d0_1 h_S_ (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_heat m c),
      ((h c).2 main_v19 (Pipeline.mem_restRefs_of main_v19 (by decide) (by decide))).trans (tail_cls m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HeatMap

end
-- ==== Proof.RefValue.lean ====
/-
  What the idealized reference computes, read at the extended reals.

  Its array of losses over `[64, 1, 384, 384]` holds, at entry `(b, c, h, w)`, the pixel loss of the logit there and
  the target at `(b, h, w)`: the logistic is spelled `1.0 / (1.0 + e^(-x))`, the clamp is jnp's clip, every other
  operation is the pixel loss's own. Its first result sums that array from the literal zero — a sum over the pixels,
  the channel axis having one entry — and divides by `384 · 384` and then by `64`, which is one division by their
  product. Its second result is the host's class loss.
-/
import proofs.«177443_j64458869178587_1_alg».proof.Proof.Gen.ReferenceIdeal.Read
import proofs.«177443_j64458869178587_1_alg».proof.Proof.Loss

noncomputable section

open scoped BigOperators
open Idealize.ShloMosaic Idealize.ShloMosaic.TcCoe Idealize.SL.Sem

namespace Cert.ReferenceIdeal.RefValue

open Cert.ReferenceIdeal Cert.ReferenceIdeal.Gen Cert.PolyLoss

/-- The reference reads the target of entry `(b, c, h, w)` at `(b, h, w)`. -/
theorem target_idx (i : S64x1x384x384.Idx) : Read.idx_main_v7 i = dropChan i := by
  funext a
  match a with
  | ⟨0, _⟩ => rfl
  | ⟨1, _⟩ => rfl
  | ⟨2, _⟩ => rfl

/-- The reference's array of pixel losses, entry by entry. -/
theorem losses_apply (x0 : FVec Ideal S64x1x384x384 .f32) (x1 : FVec Ideal S64x384x384 .f32) (i : S64x1x384x384.Idx) :
    Read.val_main_v31 (F := Ideal) x0 x1 i = pixel (x0 i) (x1 (dropChan i)) := by
  simp only [Read.val_main_v0_apply, Read.val_main_v1_apply, Read.val_main_cst_apply, Read.val_main_v2_apply, Read.val_main_v3_apply, Read.val_main_cst_0_apply, Read.val_main_v4_apply, Read.val_main_v5_apply, Read.val_main_cst_1_apply, Read.val_main_cst_2_apply, Read.val_main_call0_v0_apply, Read.val_main_call0_v1_apply, Read.val_main_call0_v2_apply, Read.val_main_call0_v3_apply, Read.val_main_call0_v4_apply, Read.val_main_v6_apply, Read.val_main_v7_apply, Read.val_main_v8_apply, Read.val_main_cst_3_apply, Read.val_main_v9_apply, Read.val_main_v10_apply, Read.val_main_cst_4_apply, Read.val_main_v11_apply, Read.val_main_v12_apply, Read.val_main_v13_apply, Read.val_main_cst_5_apply, Read.val_main_v14_apply, Read.val_main_v15_apply, Read.val_main_v16_apply, Read.val_main_cst_6_apply, Read.val_main_v17_apply, Read.val_main_v18_apply, Read.val_main_v19_apply, Read.val_main_v20_apply, Read.val_main_v21_apply, Read.val_main_cst_7_apply, Read.val_main_v22_apply, Read.val_main_v23_apply, Read.val_main_cst_8_apply, Read.val_main_v24_apply, Read.val_main_v25_apply, Read.val_main_v26_apply, Read.val_main_cst_9_apply, Read.val_main_v27_apply, Read.val_main_v28_apply, Read.val_main_cst_10_apply, Read.val_main_v29_apply, Read.val_main_v30_apply, Read.val_main_v31_apply,
    Ideal.ofBits_def, Ideal.addf_def, Ideal.subf_def, Ideal.mulf_def, Ideal.maximumf_def, Ideal.minimumf_def,
    Ideal.hostDivf_def, Ideal.hostUnary_exp_def, Ideal.hostUnary_log_def, Ideal.hostNegf_def, Ideal.negf_def, Ideal.cmpf_def,
    logistic_spelled]
  rw [target_idx]
  rfl

/-- The reference's first result is the heat-map loss: its sum over `[64, 1, 384, 384]` is the sum over the pixels,
    and its two divisions are one. -/
theorem heat_eq (x0 : FVec Ideal S64x1x384x384 .f32) (x1 : FVec Ideal S64x384x384 .f32) :
    Read.val_main_v34 (F := Ideal) x0 x1 = fun _ => heatLoss x0 x1 := by
  funext i
  rw [Read.val_main_v34_apply, Read.val_main_v33_apply, Read.val_main_v32_apply]
  simp only [Read.val_main_cst_11_apply, Read.val_main_cst_12_apply, Read.val_main_cst_13_apply, Ideal.hostDivf_def,
    Ideal.ofBits_def]
  rw [div_div_eq]
  unfold heatLoss
  refine congrArg (fun s => Ideal.div (Ideal.ofBits .f32 0x00000000#32 + s) (Ideal.ofBits .f32 0x4B100000#32)) ?_
  rw [sum_withChan]
  refine Finset.sum_congr rfl fun i' _ => ?_
  rw [losses_apply, dropChan_withChan]
  rfl

/-- The reference's second result is the class loss, the same host term as the kernel's program computes. -/
theorem cls_eq (x2 x3 : FVec Ideal S64x1 .f32) :
    Read.val_main_v51 (F := Ideal) x2 x3 = clsLoss bcast_S_S64x1 reducesTo_S64x1_S_d0_1 h_S_ x2 x3 := rfl

end Cert.ReferenceIdeal.RefValue

end
-- ==== Proof.lean ====
/-
  A poly-1 heat-map loss with a class loss beside it: the kernel against its reference, over the extended reals.

  Both programs take logits `[64, 1, 384, 384]`, targets `[64, 384, 384]`, class predictions and class labels
  `[64, 1]`, and return two scalars.

  The heat-map loss. For each pixel, `p = min 0.9999 (max 0.0001 (σ logit))` and the pixel's loss is
  `-(t · max (log p) (-100) + (1 - t) · max (log (1 - p)) (-100)) + 2 · (1 - (if t > 0 then p else 1 - p))`.
  The reference sums this over all `64 · 1 · 384 · 384` entries from `0` and divides by `384 · 384` and then by `64`.
  The kernel walks the batch in four blocks of sixteen images, adds each block's sum to a running total that it
  starts at `0`, and at the end divides by `64 · 384 · 384`. The two agree at every argument, finite or not:
    · entry by entry the two losses are the same expression — the reference spells the logistic as
      `1 / (1 + e^(-x))` and a negation as `-x` where the kernel has the logistic and `0 - x`;
    · the blocks partition the batch, and sums of extended reals may be regrouped;
    · dividing by two nonzero reals in turn is multiplying by the product of their reciprocals.
  No finiteness of the inputs is used.

  The class loss is computed by the same host operations on the two small arrays in both programs.

  The kernel's idealization rewrote nothing, so `preserves` is trivial; the three frames are the generated frame
  runs (the reference's is its generated run with the results dropped).
-/
import proofs.«177443_j64458869178587_1_alg».proof.Defs
import proofs.«177443_j64458869178587_1_alg».proof.Proof.Gen.Kernel
import proofs.«177443_j64458869178587_1_alg».proof.Proof.Gen.Kernel.Skeleton
import proofs.«177443_j64458869178587_1_alg».proof.Proof.Gen.Kernel.Launch
import proofs.«177443_j64458869178587_1_alg».proof.Proof.Gen.Kernel.Points
import proofs.«177443_j64458869178587_1_alg».proof.Proof.Gen.Kernel.Frame
import proofs.«177443_j64458869178587_1_alg».proof.Proof.Gen.KernelIdeal
import proofs.«177443_j64458869178587_1_alg».proof.Proof.Gen.KernelIdeal.Skeleton
import proofs.«177443_j64458869178587_1_alg».proof.Proof.Gen.KernelIdeal.Launch
import proofs.«177443_j64458869178587_1_alg».proof.Proof.Gen.KernelIdeal.Points
import proofs.«177443_j64458869178587_1_alg».proof.Proof.Gen.KernelIdeal.Frame
import proofs.«177443_j64458869178587_1_alg».proof.Proof.Gen.ReferenceIdeal
import proofs.«177443_j64458869178587_1_alg».proof.Proof.Gen.Pre_finite_inputs
import proofs.«177443_j64458869178587_1_alg».proof.Proof.Gen.ReferenceIdeal.Run
import proofs.«177443_j64458869178587_1_alg».proof.Proof.Gen.ReferenceIdeal.Read
import proofs.«177443_j64458869178587_1_alg».proof.Proof.KernelValue
import proofs.«177443_j64458869178587_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments both programs end with the heat-map loss and the class loss of
    those arguments in their two results. -/
theorem algebraic : Cert.algebraic_KernelIdeal_ReferenceIdeal := by
  intro m ρ m' ρ' _ hagree
  refine ⟨fun c _ => Cert.PolyLoss.heatLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.PolyLoss.clsLoss Cert.KernelIdeal.Facts₀.bcast_S_S64x1 Cert.KernelIdeal.Facts₀.reducesTo_S64x1_S_d0_1
      Cert.KernelIdeal.Facts₀.h_S_
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HeatMap.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v34_eq, Cert.ReferenceIdeal.RefValue.heat_eq, (hagree c).1, (hagree c).2.1]
    rfl
  · rw [Cert.ReferenceIdeal.Read.val_main_v51_eq, Cert.ReferenceIdeal.RefValue.cls_eq, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
